-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x3 : Shape := ⟨2, ![4000000, 3]⟩
abbrev S4000000x4 : Shape := ⟨2, ![4000000, 4]⟩
abbrev S_ : Shape := ⟨0, ![]⟩

class Facts : Prop where
  bcast_S_S4000000x3 : S_.BroadcastsInDim S4000000x3 (![] : Fin 0 → Fin S4000000x3.rank)
  reducesTo_S4000000x3_S_d0_1 : S4000000x3.ReducesTo [0, 1] S_
  h_S_ : 0 < S_.numel
  bcast_S_S4000000x4 : S_.BroadcastsInDim S4000000x4 (![] : Fin 0 → Fin S4000000x4.rank)
  reducesTo_S4000000x4_S_d0_1 : S4000000x4.ReducesTo [0, 1] S_

variable [Facts]

def fn {F : FTy → Type} [FloatOps F] (main_arg0 : FVec F S4000000x3 .f32) (main_arg1 : FVec F S4000000x4 .f32) : IVec S_ 1 :=
  let main_v0 : FVec F S4000000x3 .f32 := Host.absf main_arg0
  let main_cst : FVec F S_ .f32 := constant S_ .f32 0x7F800000#32
  let main_v1 : FVec F S4000000x3 .f32 := broadcastInDim S4000000x3 ![] bcast_S_S4000000x3 main_cst
  let main_v2 : IVec S4000000x3 1 := cmpf .olt main_v0 main_v1
  let main_c : IVec S_ 1 := constantI S_ 1 1#1
  let main_v3 : IVec S_ 1 := (fun x v => Host.reduce IntOp.andi x v reducesTo_S4000000x3_S_d0_1 h_S_) main_v2 main_c
  let main_v4 : FVec F S4000000x4 .f32 := Host.absf main_arg1
  let main_cst_0 : FVec F S_ .f32 := constant S_ .f32 0x7F800000#32
  let main_v5 : FVec F S4000000x4 .f32 := broadcastInDim S4000000x4 ![] bcast_S_S4000000x4 main_cst_0
  let main_v6 : IVec S4000000x4 1 := cmpf .olt main_v4 main_v5
  let main_c_1 : IVec S_ 1 := constantI S_ 1 1#1
  let main_v7 : IVec S_ 1 := (fun x v => Host.reduce IntOp.andi x v reducesTo_S4000000x4_S_d0_1 h_S_) main_v6 main_c_1
  let main_v8 : IVec S_ 1 := andi main_v3 main_v7
  main_v8
-- ==== Kernel.lean ====
abbrev S4000000x3 : Shape := ⟨2, ![4000000, 3]⟩
abbrev S4000000x4 : Shape := ⟨2, ![4000000, 4]⟩
abbrev S3x4000000 : Shape := ⟨2, ![3, 4000000]⟩
abbrev S4x4000000 : Shape := ⟨2, ![4, 4000000]⟩
abbrev S9x4000000 : Shape := ⟨2, ![9, 4000000]⟩
abbrev S3x32000 : Shape := ⟨2, ![3, 32000]⟩
abbrev S4x32000 : Shape := ⟨2, ![4, 32000]⟩
abbrev S9x32000 : Shape := ⟨2, ![9, 32000]⟩
abbrev S1x32000 : Shape := ⟨2, ![1, 32000]⟩
abbrev S32000 : Shape := ⟨1, ![32000]⟩
abbrev S4000000x9 : Shape := ⟨2, ![4000000, 9]⟩
abbrev S4000000x3x3 : Shape := ⟨3, ![4000000, 3, 3]⟩

abbrev nBuf : Space → Nat
  | .hbm => 7
  | .vmem => 6
  | .smem => 0
  | _ => 0

abbrev bufTy : (tb : Table) → Fin (tcTables nBuf tb) → BufTy
  | .hbm, ⟨0, _⟩ => ⟨S4000000x3, .f32⟩
  | .hbm, ⟨1, _⟩ => ⟨S4000000x4, .f32⟩
  | .hbm, ⟨2, _⟩ => ⟨S3x4000000, .f32⟩
  | .hbm, ⟨3, _⟩ => ⟨S4x4000000, .f32⟩
  | .hbm, ⟨4, _⟩ => ⟨S9x4000000, .f32⟩
  | .hbm, ⟨5, _⟩ => ⟨S4000000x9, .f32⟩
  | .hbm, ⟨6, _⟩ => ⟨S4000000x3x3, .f32⟩
  | .local _ .vmem, ⟨0, _⟩ => ⟨S3x32000, .f32⟩
  | .local _ .vmem, ⟨1, _⟩ => ⟨S3x32000, .f32⟩
  | .local _ .vmem, ⟨2, _⟩ => ⟨S4x32000, .f32⟩
  | .local _ .vmem, ⟨3, _⟩ => ⟨S4x32000, .f32⟩
  | .local _ .vmem, ⟨4, _⟩ => ⟨S9x32000, .f32⟩
  | .local _ .vmem, ⟨5, _⟩ => ⟨S9x32000, .f32⟩
  | _, _ => ⟨S4000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x32000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S9x32000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S4000000x3_S3x4000000_1_0 : S4000000x3.Transposes [1, 0] S3x4000000
  transposes_S4000000x4_S4x4000000_1_0 : S4000000x4.Transposes [1, 0] S4x4000000
  inb_S4x32000_S1x32000_0_0 : ∀ a, (![0, 0] : Fin 2 → Nat) a + S1x32000.size a ≤ S4x32000.size a
  h_S1x32000 : 0 < S1x32000.numel
  shapeCasts_S1x32000_S32000 : S1x32000.ShapeCasts S32000
  inb_S4x32000_S1x32000_1_0 : ∀ a, (![1, 0] : Fin 2 → Nat) a + S1x32000.size a ≤ S4x32000.size a
  inb_S4x32000_S1x32000_2_0 : ∀ a, (![2, 0] : Fin 2 → Nat) a + S1x32000.size a ≤ S4x32000.size a
  inb_S4x32000_S1x32000_3_0 : ∀ a, (![3, 0] : Fin 2 → Nat) a + S1x32000.size a ≤ S4x32000.size a
  inb_S3x32000_S1x32000_0_0 : ∀ a, (![0, 0] : Fin 2 → Nat) a + S1x32000.size a ≤ S3x32000.size a
  inb_S3x32000_S1x32000_1_0 : ∀ a, (![1, 0] : Fin 2 → Nat) a + S1x32000.size a ≤ S3x32000.size a
  inb_S3x32000_S1x32000_2_0 : ∀ a, (![2, 0] : Fin 2 → Nat) a + S1x32000.size a ≤ S3x32000.size a
  inb_S9x32000_S1x32000_0_0 : ∀ a, (![0, 0] : Fin 2 → Nat) a + S1x32000.size a ≤ S9x32000.size a
  shapeCasts_S32000_S1x32000 : S32000.ShapeCasts S1x32000
  inb_S9x32000_S1x32000_1_0 : ∀ a, (![1, 0] : Fin 2 → Nat) a + S1x32000.size a ≤ S9x32000.size a
  inb_S9x32000_S1x32000_2_0 : ∀ a, (![2, 0] : Fin 2 → Nat) a + S1x32000.size a ≤ S9x32000.size a
  inb_S9x32000_S1x32000_3_0 : ∀ a, (![3, 0] : Fin 2 → Nat) a + S1x32000.size a ≤ S9x32000.size a
  inb_S9x32000_S1x32000_4_0 : ∀ a, (![4, 0] : Fin 2 → Nat) a + S1x32000.size a ≤ S9x32000.size a
  inb_S9x32000_S1x32000_5_0 : ∀ a, (![5, 0] : Fin 2 → Nat) a + S1x32000.size a ≤ S9x32000.size a
  inb_S9x32000_S1x32000_6_0 : ∀ a, (![6, 0] : Fin 2 → Nat) a + S1x32000.size a ≤ S9x32000.size a
  inb_S9x32000_S1x32000_7_0 : ∀ a, (![7, 0] : Fin 2 → Nat) a + S1x32000.size a ≤ S9x32000.size a
  inb_S9x32000_S1x32000_8_0 : ∀ a, (![8, 0] : Fin 2 → Nat) a + S1x32000.size a ≤ S9x32000.size a
  transposes_S9x4000000_S4000000x9_1_0 : S9x4000000.Transposes [1, 0] S4000000x9
  shapeCasts_S4000000x9_S4000000x3x3 : S4000000x9.ShapeCasts S4000000x3x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x32000.size a ≤ S3x4000000.size a
  hwx0_0 : ∀ i : grid0.Coords, EltTy.bits .f32 = 32 ∨ (Rect.block (s := S3x4000000) S3x32000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x32000.size a ≤ S4x4000000.size a
  hwx0_1 : ∀ i : grid0.Coords, EltTy.bits .f32 = 32 ∨ (Rect.block (s := S4x4000000) S4x32000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S9x32000.size a ≤ S9x4000000.size a
  hwx0_2 : ∀ i : grid0.Coords, EltTy.bits .f32 = 32 ∨ (Rect.block (s := S9x4000000) S9x32000.size (cc0_transform_2 i) (hinb0_2 i)).WholeWords (EltTy.packing .f32)

variable [Facts₀]

abbrev win0_0 : Pipeline.Window sig grid0 :=
  Pipeline.Window.ofSpec (Memref.whole main_v0) S3x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x32000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S9x32000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4000000x3 : Shape := ⟨2, ![4000000, 3]⟩
abbrev S4000000x4 : Shape := ⟨2, ![4000000, 4]⟩
abbrev S_ : Shape := ⟨0, ![]⟩
abbrev S4000000 : Shape := ⟨1, ![4000000]⟩
abbrev S4000000x1 : Shape := ⟨2, ![4000000, 1]⟩
abbrev S4000000x1x3 : Shape := ⟨3, ![4000000, 1, 3]⟩
abbrev S4000000x3x3 : Shape := ⟨3, ![4000000, 3, 3]⟩

abbrev nBuf : Space → Nat
  | .hbm => 104
  | .vmem => 0
  | .smem => 0
  | _ => 0

abbrev bufTy : (tb : Table) → Fin (tcTables nBuf tb) → BufTy
  | .hbm, ⟨0, _⟩ => ⟨S4000000x3, .f32⟩
  | .hbm, ⟨1, _⟩ => ⟨S4000000x4, .f32⟩
  | .hbm, ⟨2, _⟩ => ⟨S4000000x4, .f32⟩
  | .hbm, ⟨3, _⟩ => ⟨S_, .f32⟩
  | .hbm, ⟨4, _⟩ => ⟨S4000000, .f32⟩
  | .hbm, ⟨5, _⟩ => ⟨S4000000x1, .f32⟩
  | .hbm, ⟨6, _⟩ => ⟨S4000000x1, .f32⟩
  | .hbm, ⟨7, _⟩ => ⟨S_, .f32⟩
  | .hbm, ⟨8, _⟩ => ⟨S4000000x1, .f32⟩
  | .hbm, ⟨9, _⟩ => ⟨S4000000x1, .f32⟩
  | .hbm, ⟨10, _⟩ => ⟨S4000000x4, .f32⟩
  | .hbm, ⟨11, _⟩ => ⟨S4000000x4, .f32⟩
  | .hbm, ⟨12, _⟩ => ⟨S4000000x1, .f32⟩
  | .hbm, ⟨13, _⟩ => ⟨S4000000, .f32⟩
  | .hbm, ⟨14, _⟩ => ⟨S4000000x1, .f32⟩
  | .hbm, ⟨15, _⟩ => ⟨S4000000, .f32⟩
  | .hbm, ⟨16, _⟩ => ⟨S4000000x1, .f32⟩
  | .hbm, ⟨17, _⟩ => ⟨S4000000, .f32⟩
  | .hbm, ⟨18, _⟩ => ⟨S4000000x1, .f32⟩
  | .hbm, ⟨19, _⟩ => ⟨S4000000, .f32⟩
  | .hbm, ⟨20, _⟩ => ⟨S4000000, .f32⟩
  | .hbm, ⟨21, _⟩ => ⟨S4000000, .f32⟩
  | .hbm, ⟨22, _⟩ => ⟨S4000000, .f32⟩
  | .hbm, ⟨23, _⟩ => ⟨S_, .f32⟩
  | .hbm, ⟨24, _⟩ => ⟨S4000000, .f32⟩
  | .hbm, ⟨25, _⟩ => ⟨S4000000, .f32⟩
  | .hbm, ⟨26, _⟩ => ⟨S_, .f32⟩
  | .hbm, ⟨27, _⟩ => ⟨S4000000, .f32⟩
  | .hbm, ⟨28, _⟩ => ⟨S4000000, .f32⟩
  | .hbm, ⟨29, _⟩ => ⟨S4000000, .f32⟩
  | .hbm, ⟨30, _⟩ => ⟨S4000000, .f32⟩
  | .hbm, ⟨31, _⟩ => ⟨S4000000, .f32⟩
  | .hbm, ⟨32, _⟩ => ⟨S_, .f32⟩
  | .hbm, ⟨33, _⟩ => ⟨S4000000, .f32⟩
  | .hbm, ⟨34, _⟩ => ⟨S4000000, .f32⟩
  | .hbm, ⟨35, _⟩ => ⟨S4000000, .f32⟩
  | .hbm, ⟨36, _⟩ => ⟨S4000000, .f32⟩
  | .hbm, ⟨37, _⟩ => ⟨S4000000, .f32⟩
  | .hbm, ⟨38, _⟩ => ⟨S_, .f32⟩
  | .hbm, ⟨39, _⟩ => ⟨S4000000, .f32⟩
  | .hbm, ⟨40, _⟩ => ⟨S4000000, .f32⟩
  | .hbm, ⟨41, _⟩ => ⟨S4000000x1, .f32⟩
  | .hbm, ⟨42, _⟩ => ⟨S4000000x1, .f32⟩
  | .hbm, ⟨43, _⟩ => ⟨S4000000x1, .f32⟩
  | .hbm, ⟨44, _⟩ => ⟨S4000000x3, .f32⟩
  | .hbm, ⟨45, _⟩ => ⟨S4000000, .f32⟩
  | .hbm, ⟨46, _⟩ => ⟨S4000000, .f32⟩
  | .hbm, ⟨47, _⟩ => ⟨S4000000, .f32⟩
  | .hbm, ⟨48, _⟩ => ⟨S_, .f32⟩
  | .hbm, ⟨49, _⟩ => ⟨S4000000, .f32⟩
  | .hbm, ⟨50, _⟩ => ⟨S4000000, .f32⟩
  | .hbm, ⟨51, _⟩ => ⟨S4000000, .f32⟩
  | .hbm, ⟨52, _⟩ => ⟨S4000000, .f32⟩
  | .hbm, ⟨53, _⟩ => ⟨S4000000, .f32⟩
  | .hbm, ⟨54, _⟩ => ⟨S_, .f32⟩
  | .hbm, ⟨55, _⟩ => ⟨S4000000, .f32⟩
  | .hbm, ⟨56, _⟩ => ⟨S4000000, .f32⟩
  | .hbm, ⟨57, _⟩ => ⟨S_, .f32⟩
  | .hbm, ⟨58, _⟩ => ⟨S4000000, .f32⟩
  | .hbm, ⟨59, _⟩ => ⟨S4000000, .f32⟩
  | .hbm, ⟨60, _⟩ => ⟨S4000000, .f32⟩
  | .hbm, ⟨61, _⟩ => ⟨S4000000, .f32⟩
  | .hbm, ⟨62, _⟩ => ⟨S4000000, .f32⟩
  | .hbm, ⟨63, _⟩ => ⟨S_, .f32⟩
  | .hbm, ⟨64, _⟩ => ⟨S4000000, .f32⟩
  | .hbm, ⟨65, _⟩ => ⟨S4000000, .f32⟩
  | .hbm, ⟨66, _⟩ => ⟨S4000000x1, .f32⟩
  | .hbm, ⟨67, _⟩ => ⟨S4000000x1, .f32⟩
  | .hbm, ⟨68, _⟩ => ⟨S4000000x1, .f32⟩
  | .hbm, ⟨69, _⟩ => ⟨S4000000x3, .f32⟩
  | .hbm, ⟨70, _⟩ => ⟨S4000000, .f32⟩
  | .hbm, ⟨71, _⟩ => ⟨S4000000, .f32⟩
  | .hbm, ⟨72, _⟩ => ⟨S4000000, .f32⟩
  | .hbm, ⟨73, _⟩ => ⟨S_, .f32⟩
  | .hbm, ⟨74, _⟩ => ⟨S4000000, .f32⟩
  | .hbm, ⟨75, _⟩ => ⟨S4000000, .f32⟩
  | .hbm, ⟨76, _⟩ => ⟨S4000000, .f32⟩
  | .hbm, ⟨77, _⟩ => ⟨S4000000, .f32⟩
  | .hbm, ⟨78, _⟩ => ⟨S4000000, .f32⟩
  | .hbm, ⟨79, _⟩ => ⟨S_, .f32⟩
  | .hbm, ⟨80, _⟩ => ⟨S4000000, .f32⟩
  | .hbm, ⟨81, _⟩ => ⟨S4000000, .f32⟩
  | .hbm, ⟨82, _⟩ => ⟨S4000000, .f32⟩
  | .hbm, ⟨83, _⟩ => ⟨S4000000, .f32⟩
  | .hbm, ⟨84, _⟩ => ⟨S4000000, .f32⟩
  | .hbm, ⟨85, _⟩ => ⟨S_, .f32⟩
  | .hbm, ⟨86, _⟩ => ⟨S4000000, .f32⟩
  | .hbm, ⟨87, _⟩ => ⟨S4000000, .f32⟩
  | .hbm, ⟨88, _⟩ => ⟨S_, .f32⟩
  | .hbm, ⟨89, _⟩ => ⟨S4000000, .f32⟩
  | .hbm, ⟨90, _⟩ => ⟨S4000000, .f32⟩
  | .hbm, ⟨91, _⟩ => ⟨S4000000x1, .f32⟩
  | .hbm, ⟨92, _⟩ => ⟨S4000000x1, .f32⟩
  | .hbm, ⟨93, _⟩ => ⟨S4000000x1, .f32⟩
  | .hbm, ⟨94, _⟩ => ⟨S4000000x3, .f32⟩
  | .hbm, ⟨95, _⟩ => ⟨S4000000x1x3, .f32⟩
  | .hbm, ⟨96, _⟩ => ⟨S4000000x1x3, .f32⟩
  | .hbm, ⟨97, _⟩ => ⟨S4000000x1x3, .f32⟩
  | .hbm, ⟨98, _⟩ => ⟨S4000000x3x3, .f32⟩
  | .hbm, ⟨99, _⟩ => ⟨S4000000x3, .f32⟩
  | .hbm, ⟨100, _⟩ => ⟨S4000000x1x3, .f32⟩
  | .hbm, ⟨101, _⟩ => ⟨S4000000x3x3, .f32⟩
  | .hbm, ⟨102, _⟩ => ⟨S4000000x3x3, .f32⟩
  | .hbm, ⟨103, _⟩ => ⟨S4000000x3x3, .f32⟩
  | _, _ => ⟨S4000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_4 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_7 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_8 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_9 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_10 : Ref sig .tc := ⟨.hbm, 85, rfl⟩
abbrev main_v68 : Ref sig .tc := ⟨.hbm, 86, rfl⟩
abbrev main_v69 : Ref sig .tc := ⟨.hbm, 87, rfl⟩
abbrev main_cst_11 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩

abbrev nD : Nat := 1
abbrev τ : Topo := Topo.v7x

variable {F : FTy → Type} [FloatOps F]

class Facts₀ : Prop where
  reducesTo_S4000000x4_S4000000_d1 : S4000000x4.ReducesTo [1] S4000000
  h_S_ : 0 < S_.numel
  bcast_S4000000_S4000000x1_0 : S4000000.BroadcastsInDim S4000000x1 (![0] : Fin 1 → Fin S4000000x1.rank)
  bcast_S_S4000000x1 : S_.BroadcastsInDim S4000000x1 (![] : Fin 0 → Fin S4000000x1.rank)
  bcast_S4000000x1_S4000000x4_0_1 : S4000000x1.BroadcastsInDim S4000000x4 (![0, 1] : Fin 2 → Fin S4000000x4.rank)
  slices_S4000000x4_S4000000x1_0_0 : S4000000x4.Slices ![0, 0] S4000000x1
  shapeCasts_S4000000x1_S4000000 : S4000000x1.ShapeCasts S4000000
  slices_S4000000x4_S4000000x1_0_1 : S4000000x4.Slices ![0, 1] S4000000x1
  slices_S4000000x4_S4000000x1_0_2 : S4000000x4.Slices ![0, 2] S4000000x1
  slices_S4000000x4_S4000000x1_0_3 : S4000000x4.Slices ![0, 3] S4000000x1
  bcast_S_S4000000 : S_.BroadcastsInDim S4000000 (![] : Fin 0 → Fin S4000000.rank)
  concatenates_S4000000x1_S4000000x1_S4000000x1_S4000000x3_d1 : Shape.Concatenates [S4000000x1, S4000000x1, S4000000x1] S4000000x3 1
  bcast_S4000000x3_S4000000x1x3_0_2 : S4000000x3.BroadcastsInDim S4000000x1x3 (![0, 2] : Fin 2 → Fin S4000000x1x3.rank)
  concatenates_S4000000x1x3_S4000000x1x3_S4000000x1x3_S4000000x3x3_d1 : Shape.Concatenates [S4000000x1x3, S4000000x1x3, S4000000x1x3] S4000000x3x3 1
  bcast_S4000000x1x3_S4000000x3x3_0_1_2 : S4000000x1x3.BroadcastsInDim S4000000x3x3 (![0, 1, 2] : Fin 3 → Fin S4000000x3x3.rank)
  dot_S4000000x3x3_S4000000x3x3_S4000000x3x3_2_2_1_1_0_0_wf : DotDims.WF S4000000x3x3 S4000000x3x3 S4000000x3x3 [2] [2] [1] [1] [0] [0]

variable [Facts₀]

def dot_S4000000x3x3_S4000000x3x3_S4000000x3x3_2_2_1_1_0_0 : DotDims S4000000x3x3 S4000000x3x3 S4000000x3x3 where
  lhsContracting := [2]
  rhsContracting := [2]
  lhsNonContracting := [1]
  rhsNonContracting := [1]
  lhsBatch := [0]
  rhsBatch := [0]
  wf := dot_S4000000x3x3_S4000000x3x3_S4000000x3x3_2_2_1_1_0_0_wf

class Facts : Prop extends Facts₀ where

variable [Facts]
-- ==== Proof.CovAlgebra.lean ====
/-
  The covariance of one oriented, scaled Gaussian as arithmetic on the extended reals.

  A row of the input is a quaternion q = (w, x, y, z) and three log-scales.  The quaternion is divided by its
  Euclidean norm plus a small positive constant; the unit quaternion gives a 3×3 rotation matrix R by the usual
  quadratic formulas; with s the exponentials of the log-scales, the covariance is (R·diag s)(R·diag s)ᵀ, that is
  cov i j = Σₖ (R i k · s k)(R j k · s k).

  Two spellings of this number meet here.  One divides each component by the norm and contracts the scaled matrix
  with itself (the sum of squares under the norm starts from zero).  The other multiplies each component by the reciprocal of the norm,
  squares the scales first, and writes the three-term sums out as (R i k · R j k)·(s k · s k), computing only the
  upper triangle and using it for the lower one.  They agree on every extended real: sums and products there are
  commutative and associative, and a · (1 / n) is a / n whenever n ≠ 0 — which holds because a square is never
  negative, so the norm is at least zero and the positive constant keeps the divisor off zero.
-/
import Idealize.ShloMosaic.PureOps.Ideal
import Idealize.ShloMosaic.PureOps.Ideal.Laws

noncomputable section

namespace Cert.GaussCov

open Idealize.ShloMosaic
open scoped BigOperators

/-- The small constant added to the norm (about 1e-8), as the float word both programs carry. -/
abbrev epsW : EReal := Ideal.ofBits .f32 0x322BCC77#32
/-- The float word of one. -/
abbrev oneW : EReal := Ideal.ofBits .f32 0x3F800000#32
/-- The float word of two. -/
abbrev twoW : EReal := Ideal.ofBits .f32 0x40000000#32

/-- The word of one denotes one. -/
theorem oneW_eq : oneW = 1 := by
  simp [Ideal.ofBits, Ideal.ieee, -EReal.coe_mul]
  norm_num

/-- The small constant is positive. -/
theorem epsW_pos : (0 : EReal) < epsW := by
  simp [Ideal.ofBits, Ideal.ieee, -EReal.coe_mul]

/-- A square of an extended real is never negative (the infinities square to +∞). -/
theorem mul_self_nonneg' (x : EReal) : 0 ≤ x * x := by
  induction x using EReal.rec with
  | bot => simp
  | top => simp
  | coe r => rw [← EReal.coe_mul]; exact_mod_cast mul_self_nonneg r

/-- The square root of a non-negative extended real is non-negative. -/
theorem sqrt_nonneg' (x : EReal) (h : 0 ≤ x) : 0 ≤ Ideal.sqrt x := by
  induction x using EReal.rec with
  | bot => simp at h
  | top => simp
  | coe r =>
    have hr : ¬ r < 0 := by
      have : (0 : ℝ) ≤ r := by exact_mod_cast h
      linarith
    rw [Ideal.sqrt_coe, if_neg hr]
    exact_mod_cast Real.sqrt_nonneg r

/-- The norm of a quaternion plus the small constant, the sum of squares taken from zero over the four components. -/
def normEps (q : Fin 4 → EReal) : EReal := Ideal.sqrt (0 + ∑ k : Fin 4, q k * q k) + epsW

/-- The same number with the four squares added left to right. -/
theorem normEps_eq (q : Fin 4 → EReal) :
    normEps q = Ideal.sqrt (q 0 * q 0 + q 1 * q 1 + q 2 * q 2 + q 3 * q 3) + epsW := by
  unfold normEps
  rw [Fin.sum_univ_four, zero_add]

/-- It is positive, so never zero. -/
theorem normEps_ne_zero (q : Fin 4 → EReal) : normEps q ≠ 0 := by
  rw [normEps_eq]
  have h0 : (0 : EReal) ≤ q 0 * q 0 + q 1 * q 1 + q 2 * q 2 + q 3 * q 3 :=
    add_nonneg (add_nonneg (add_nonneg (mul_self_nonneg' _) (mul_self_nonneg' _)) (mul_self_nonneg' _)) (mul_self_nonneg' _)
  exact (epsW_pos.trans_le (le_add_of_nonneg_left (sqrt_nonneg' _ h0))).ne'

/-- The unit quaternion: each component divided by the norm plus the small constant. -/
def unitQ (q : Fin 4 → EReal) (k : Fin 4) : EReal := Ideal.div (q k) (normEps q)

/-- Multiplying by the reciprocal of the (nonzero) divisor is dividing by it. -/
theorem mul_recip_eq_div (a : EReal) (q : Fin 4 → EReal) :
    a * Ideal.div oneW (Ideal.sqrt (q 0 * q 0 + q 1 * q 1 + q 2 * q 2 + q 3 * q 3) + epsW) = Ideal.div a (normEps q) := by
  rw [← normEps_eq, Ideal.div, if_neg (normEps_ne_zero q), Ideal.div, if_neg (normEps_ne_zero q), oneW_eq, one_mul]

/-- The rotation matrix of a quaternion u = (w, x, y, z), entry by entry. -/
def rotM (u : Fin 4 → EReal) (i k : Fin 3) : EReal :=
  ![![oneW - twoW * (u 2 * u 2 + u 3 * u 3), twoW * (u 1 * u 2 - u 3 * u 0), twoW * (u 1 * u 3 + u 2 * u 0)],
    ![twoW * (u 1 * u 2 + u 3 * u 0), oneW - twoW * (u 1 * u 1 + u 3 * u 3), twoW * (u 2 * u 3 - u 1 * u 0)],
    ![twoW * (u 1 * u 3 - u 2 * u 0), twoW * (u 2 * u 3 + u 1 * u 0), oneW - twoW * (u 1 * u 1 + u 2 * u 2)]] i k

/-- The covariance entry: the scaled rotation matrix contracted with itself over its second axis. -/
def covM (R : Fin 3 → Fin 3 → EReal) (s : Fin 3 → EReal) (i j : Fin 3) : EReal :=
  ∑ k : Fin 3, (R i k * s k) * (R j k * s k)

/-- The three-term form with the scales squared first. -/
def dot3 (R : Fin 3 → Fin 3 → EReal) (s : Fin 3 → EReal) (i j : Fin 3) : EReal :=
  R i 0 * R j 0 * (s 0 * s 0) + R i 1 * R j 1 * (s 1 * s 1) + R i 2 * R j 2 * (s 2 * s 2)

/-- The three-term form is the contraction. -/
theorem dot3_eq_covM (R : Fin 3 → Fin 3 → EReal) (s : Fin 3 → EReal) (i j : Fin 3) : dot3 R s i j = covM R s i j := by
  unfold dot3 covM
  rw [Fin.sum_univ_three, mul_mul_mul_comm (R i 0), mul_mul_mul_comm (R i 1), mul_mul_mul_comm (R i 2)]

/-- The contraction is symmetric. -/
theorem covM_symm (R : Fin 3 → Fin 3 → EReal) (s : Fin 3 → EReal) (i j : Fin 3) : covM R s i j = covM R s j i := by
  unfold covM
  exact Finset.sum_congr rfl fun k _ => mul_comm _ _

/-- Which entry (i, j) of the upper triangle each of the nine stored rows holds: row 3·i + j holds entry
    (min i j, max i j). -/
def upper : Fin 9 → Fin 3 × Fin 3 := ![(0, 0), (0, 1), (0, 2), (0, 1), (1, 1), (1, 2), (0, 2), (1, 2), (2, 2)]

/-- The entry a stored row holds is, by symmetry, entry (row / 3, row % 3) of the covariance. -/
theorem covM_upper (R : Fin 3 → Fin 3 → EReal) (s : Fin 3 → EReal) (i j : Fin 3) (r : Fin 9) (hr : r.val = 3 * i.val + j.val) :
    covM R s (upper r).1 (upper r).2 = covM R s i j := by
  fin_cases i <;> fin_cases j <;> fin_cases r <;> simp at hr <;> first | rfl | exact covM_symm R s _ _

/-- One stored row at one lane, in the reciprocal-and-squared-scales spelling: from the four quaternion components
    and the three exponentiated scales at that lane. -/
def rowVal (q : Fin 4 → EReal) (e : Fin 3 → EReal) (r : Fin 9) : EReal :=
  dot3 (rotM fun k => q k * Ideal.div oneW (Ideal.sqrt (q 0 * q 0 + q 1 * q 1 + q 2 * q 2 + q 3 * q 3) + epsW)) e (upper r).1 (upper r).2

/-- That row is the covariance entry (row / 3, row % 3) in the divide-and-contract spelling. -/
theorem rowVal_eq (q : Fin 4 → EReal) (e : Fin 3 → EReal) (i j : Fin 3) (r : Fin 9) (hr : r.val = 3 * i.val + j.val) :
    rowVal q e r = covM (rotM (unitQ q)) e i j := by
  unfold rowVal
  rw [dot3_eq_covM, covM_upper _ _ i j r hr]
  have hu : (fun k => q k * Ideal.div oneW (Ideal.sqrt (q 0 * q 0 + q 1 * q 1 + q 2 * q 2 + q 3 * q 3) + epsW)) = unitQ q :=
    funext fun k => mul_recip_eq_div (q k) q
  rw [hu]

end Cert.GaussCov

end
-- ==== Proof.KernelBlock.lean ====
/-
  What one grid step leaves in its 9 × 32000 output block, read at a row and a lane.

  The body loads the four quaternion rows and the three log-scale rows of its input blocks, computes lane by lane,
  and stores nine rows.  Every operation is lane-wise, so the value at (row, lane) depends only on the seven loaded
  values at that lane: it is the stored row's covariance entry in the reciprocal-and-squared-scales spelling.
-/
import proofs.«102997_j23862838296740_2_alg».proof.Proof.Gen.KernelIdeal.Frame
import proofs.«102997_j23862838296740_2_alg».proof.Proof.CovAlgebra
import Idealize.ShloMosaic.Lib.Pipeline.Value
import Idealize.ShloMosaic.Lib.ValueIdx

set_option maxRecDepth 16384

noncomputable section

namespace Cert.KernelIdeal.Block

open Cert.KernelIdeal Cert.KernelIdeal.Gen Cert.GaussCov
open Idealize.ShloMosaic Idealize.ShloMosaic.TcCoe Idealize.ShloMosaic.ValueIdx

/-- A lane vector viewed as a one-row matrix reads, at (0, l), the vector at l. -/
theorem addRow_apply {α : Type} (v : S32000.Idx → α) (h : S32000.ShapeCasts S1x32000) (l : Fin 32000) :
    shapeCast S1x32000 v h (ix2 (0 : Fin 1) l) = v (ix1 l) := by
  refine (shapeCast_addUnit_apply ![32000] v h (ix2 (0 : Fin 1) l)).trans (congrArg v ?_)
  funext a; match a with | ⟨0, _⟩ => rfl

/-- A one-row matrix viewed as a lane vector reads, at l, the matrix at (0, l). -/
theorem dropRow_apply {α : Type} (v : S1x32000.Idx → α) (h : S1x32000.ShapeCasts S32000) (l : Fin 32000) :
    shapeCast S32000 v h (ix1 l) = v (ix2 (0 : Fin 1) l) := by
  refine (shapeCast_dropUnit_apply ![32000] v h (ix1 l)).trans (congrArg v ?_)
  funext a; match a with | ⟨0, _⟩ => rfl | ⟨1, _⟩ => rfl

/-- The lane-wise square root and exponential read lane by lane. -/
theorem vsqrt_apply {s : Shape} (v : FVec Ideal s .f32) (i : s.Idx) : sqrt v i = Ideal.sqrt (v i) := rfl
theorem vexp_apply {s : Shape} (v : FVec Ideal s .f32) (i : s.Idx) : exp v i = Ideal.exp (v i) := rfl

/-! ## Each stored row at a lane

The nine stored rows, each as a function of the seven loaded rows w, x, y, z (the quaternion) and a, b, c (the
log-scales): at lane l it is the row's entry computed from the seven values at lane l. -/

theorem lane_row0 (w x y z a b c : Vec Ideal S1x32000 .f32) (l : Fin 32000) :
    (k0_pay37 (k0_pay19 c) (k0_pay23 (k0_pay13 w x y z) (k0_pay14 w x y z) (k0_pay15 w x y z) (k0_pay16 w x y z)) (k0_pay30 (k0_pay17 a) (k0_pay20 w x y z) (Scalar.ofBits .f32 0x3F800000#32)) (k0_pay31 (k0_pay13 w x y z) (k0_pay14 w x y z) (k0_pay15 w x y z) (k0_pay16 w x y z) (k0_pay18 b))) (ix2 (0 : Fin 1) l)
      = rowVal (fun k => (![w, x, y, z] : Fin 4 → Vec Ideal S1x32000 .f32) k (ix2 (0 : Fin 1) l))
          (fun k => Ideal.exp ((![a, b, c] : Fin 3 → Vec Ideal S1x32000 .f32) k (ix2 (0 : Fin 1) l))) 0 := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, addRow_apply, dropRow_apply, mulf_apply, addf_apply, subf_apply, divf_apply,
    broadcast_apply, vsqrt_apply, vexp_apply]
  rfl

theorem lane_row1 (w x y z a b c : Vec Ideal S1x32000 .f32) (l : Fin 32000) :
    (k0_pay38 (k0_pay17 a) (k0_pay18 b) (k0_pay19 c) (k0_pay21 (k0_pay20 w x y z) (Scalar.ofBits .f32 0x3F800000#32)) (k0_pay22 (k0_pay13 w x y z) (k0_pay14 w x y z) (k0_pay15 w x y z) (k0_pay16 w x y z)) (k0_pay23 (k0_pay13 w x y z) (k0_pay14 w x y z) (k0_pay15 w x y z) (k0_pay16 w x y z)) (k0_pay24 (k0_pay13 w x y z) (k0_pay14 w x y z) (k0_pay15 w x y z) (k0_pay16 w x y z)) (k0_pay25 (k0_pay14 w x y z) (k0_pay16 w x y z)) (k0_pay26 (k0_pay13 w x y z) (k0_pay14 w x y z) (k0_pay15 w x y z) (k0_pay16 w x y z))) (ix2 (0 : Fin 1) l)
      = rowVal (fun k => (![w, x, y, z] : Fin 4 → Vec Ideal S1x32000 .f32) k (ix2 (0 : Fin 1) l))
          (fun k => Ideal.exp ((![a, b, c] : Fin 3 → Vec Ideal S1x32000 .f32) k (ix2 (0 : Fin 1) l))) 1 := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, addRow_apply, dropRow_apply, mulf_apply, addf_apply, subf_apply, divf_apply,
    broadcast_apply, vsqrt_apply, vexp_apply]
  rfl

theorem lane_row2 (w x y z a b c : Vec Ideal S1x32000 .f32) (l : Fin 32000) :
    (k0_pay1 (k0_pay33 (k0_pay17 a) (k0_pay18 b) (k0_pay19 c) (k0_pay21 (k0_pay20 w x y z) (Scalar.ofBits .f32 0x3F800000#32)) (k0_pay22 (k0_pay13 w x y z) (k0_pay14 w x y z) (k0_pay15 w x y z) (k0_pay16 w x y z)) (k0_pay23 (k0_pay13 w x y z) (k0_pay14 w x y z) (k0_pay15 w x y z) (k0_pay16 w x y z)) (k0_pay27 (k0_pay13 w x y z) (k0_pay14 w x y z) (k0_pay15 w x y z) (k0_pay16 w x y z)) (k0_pay28 (k0_pay13 w x y z) (k0_pay14 w x y z) (k0_pay15 w x y z) (k0_pay16 w x y z)) (k0_pay29 (k0_pay14 w x y z) (k0_pay15 w x y z)))) (ix2 (0 : Fin 1) l)
      = rowVal (fun k => (![w, x, y, z] : Fin 4 → Vec Ideal S1x32000 .f32) k (ix2 (0 : Fin 1) l))
          (fun k => Ideal.exp ((![a, b, c] : Fin 3 → Vec Ideal S1x32000 .f32) k (ix2 (0 : Fin 1) l))) 2 := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, addRow_apply, dropRow_apply, mulf_apply, addf_apply, subf_apply, divf_apply,
    broadcast_apply, vsqrt_apply, vexp_apply]
  rfl

theorem lane_row3 (w x y z a b c : Vec Ideal S1x32000 .f32) (l : Fin 32000) :
    (k0_pay2 (k0_pay32 (k0_pay17 a) (k0_pay18 b) (k0_pay19 c) (k0_pay21 (k0_pay20 w x y z) (Scalar.ofBits .f32 0x3F800000#32)) (k0_pay22 (k0_pay13 w x y z) (k0_pay14 w x y z) (k0_pay15 w x y z) (k0_pay16 w x y z)) (k0_pay23 (k0_pay13 w x y z) (k0_pay14 w x y z) (k0_pay15 w x y z) (k0_pay16 w x y z)) (k0_pay24 (k0_pay13 w x y z) (k0_pay14 w x y z) (k0_pay15 w x y z) (k0_pay16 w x y z)) (k0_pay25 (k0_pay14 w x y z) (k0_pay16 w x y z)) (k0_pay26 (k0_pay13 w x y z) (k0_pay14 w x y z) (k0_pay15 w x y z) (k0_pay16 w x y z)))) (ix2 (0 : Fin 1) l)
      = rowVal (fun k => (![w, x, y, z] : Fin 4 → Vec Ideal S1x32000 .f32) k (ix2 (0 : Fin 1) l))
          (fun k => Ideal.exp ((![a, b, c] : Fin 3 → Vec Ideal S1x32000 .f32) k (ix2 (0 : Fin 1) l))) 3 := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, addRow_apply, dropRow_apply, mulf_apply, addf_apply, subf_apply, divf_apply,
    broadcast_apply, vsqrt_apply, vexp_apply]
  rfl

theorem lane_row4 (w x y z a b c : Vec Ideal S1x32000 .f32) (l : Fin 32000) :
    (k0_pay3 (k0_pay34 (k0_pay17 a) (k0_pay18 b) (k0_pay19 c) (k0_pay24 (k0_pay13 w x y z) (k0_pay14 w x y z) (k0_pay15 w x y z) (k0_pay16 w x y z)) (k0_pay25 (k0_pay14 w x y z) (k0_pay16 w x y z)) (k0_pay26 (k0_pay13 w x y z) (k0_pay14 w x y z) (k0_pay15 w x y z) (k0_pay16 w x y z)))) (ix2 (0 : Fin 1) l)
      = rowVal (fun k => (![w, x, y, z] : Fin 4 → Vec Ideal S1x32000 .f32) k (ix2 (0 : Fin 1) l))
          (fun k => Ideal.exp ((![a, b, c] : Fin 3 → Vec Ideal S1x32000 .f32) k (ix2 (0 : Fin 1) l))) 4 := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, addRow_apply, dropRow_apply, mulf_apply, addf_apply, subf_apply, divf_apply,
    broadcast_apply, vsqrt_apply, vexp_apply]
  rfl

theorem lane_row5 (w x y z a b c : Vec Ideal S1x32000 .f32) (l : Fin 32000) :
    (k0_pay4 (k0_pay35 (k0_pay17 a) (k0_pay18 b) (k0_pay19 c) (k0_pay24 (k0_pay13 w x y z) (k0_pay14 w x y z) (k0_pay15 w x y z) (k0_pay16 w x y z)) (k0_pay25 (k0_pay14 w x y z) (k0_pay16 w x y z)) (k0_pay26 (k0_pay13 w x y z) (k0_pay14 w x y z) (k0_pay15 w x y z) (k0_pay16 w x y z)) (k0_pay27 (k0_pay13 w x y z) (k0_pay14 w x y z) (k0_pay15 w x y z) (k0_pay16 w x y z)) (k0_pay28 (k0_pay13 w x y z) (k0_pay14 w x y z) (k0_pay15 w x y z) (k0_pay16 w x y z)) (k0_pay29 (k0_pay14 w x y z) (k0_pay15 w x y z)))) (ix2 (0 : Fin 1) l)
      = rowVal (fun k => (![w, x, y, z] : Fin 4 → Vec Ideal S1x32000 .f32) k (ix2 (0 : Fin 1) l))
          (fun k => Ideal.exp ((![a, b, c] : Fin 3 → Vec Ideal S1x32000 .f32) k (ix2 (0 : Fin 1) l))) 5 := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, addRow_apply, dropRow_apply, mulf_apply, addf_apply, subf_apply, divf_apply,
    broadcast_apply, vsqrt_apply, vexp_apply]
  rfl

theorem lane_row6 (w x y z a b c : Vec Ideal S1x32000 .f32) (l : Fin 32000) :
    (k0_pay5 (k0_pay33 (k0_pay17 a) (k0_pay18 b) (k0_pay19 c) (k0_pay21 (k0_pay20 w x y z) (Scalar.ofBits .f32 0x3F800000#32)) (k0_pay22 (k0_pay13 w x y z) (k0_pay14 w x y z) (k0_pay15 w x y z) (k0_pay16 w x y z)) (k0_pay23 (k0_pay13 w x y z) (k0_pay14 w x y z) (k0_pay15 w x y z) (k0_pay16 w x y z)) (k0_pay27 (k0_pay13 w x y z) (k0_pay14 w x y z) (k0_pay15 w x y z) (k0_pay16 w x y z)) (k0_pay28 (k0_pay13 w x y z) (k0_pay14 w x y z) (k0_pay15 w x y z) (k0_pay16 w x y z)) (k0_pay29 (k0_pay14 w x y z) (k0_pay15 w x y z)))) (ix2 (0 : Fin 1) l)
      = rowVal (fun k => (![w, x, y, z] : Fin 4 → Vec Ideal S1x32000 .f32) k (ix2 (0 : Fin 1) l))
          (fun k => Ideal.exp ((![a, b, c] : Fin 3 → Vec Ideal S1x32000 .f32) k (ix2 (0 : Fin 1) l))) 6 := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, addRow_apply, dropRow_apply, mulf_apply, addf_apply, subf_apply, divf_apply,
    broadcast_apply, vsqrt_apply, vexp_apply]
  rfl

theorem lane_row7 (w x y z a b c : Vec Ideal S1x32000 .f32) (l : Fin 32000) :
    (k0_pay6 (k0_pay35 (k0_pay17 a) (k0_pay18 b) (k0_pay19 c) (k0_pay24 (k0_pay13 w x y z) (k0_pay14 w x y z) (k0_pay15 w x y z) (k0_pay16 w x y z)) (k0_pay25 (k0_pay14 w x y z) (k0_pay16 w x y z)) (k0_pay26 (k0_pay13 w x y z) (k0_pay14 w x y z) (k0_pay15 w x y z) (k0_pay16 w x y z)) (k0_pay27 (k0_pay13 w x y z) (k0_pay14 w x y z) (k0_pay15 w x y z) (k0_pay16 w x y z)) (k0_pay28 (k0_pay13 w x y z) (k0_pay14 w x y z) (k0_pay15 w x y z) (k0_pay16 w x y z)) (k0_pay29 (k0_pay14 w x y z) (k0_pay15 w x y z)))) (ix2 (0 : Fin 1) l)
      = rowVal (fun k => (![w, x, y, z] : Fin 4 → Vec Ideal S1x32000 .f32) k (ix2 (0 : Fin 1) l))
          (fun k => Ideal.exp ((![a, b, c] : Fin 3 → Vec Ideal S1x32000 .f32) k (ix2 (0 : Fin 1) l))) 7 := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, addRow_apply, dropRow_apply, mulf_apply, addf_apply, subf_apply, divf_apply,
    broadcast_apply, vsqrt_apply, vexp_apply]
  rfl

theorem lane_row8 (w x y z a b c : Vec Ideal S1x32000 .f32) (l : Fin 32000) :
    (k0_pay7 (k0_pay36 (k0_pay17 a) (k0_pay18 b) (k0_pay19 c) (k0_pay27 (k0_pay13 w x y z) (k0_pay14 w x y z) (k0_pay15 w x y z) (k0_pay16 w x y z)) (k0_pay28 (k0_pay13 w x y z) (k0_pay14 w x y z) (k0_pay15 w x y z) (k0_pay16 w x y z)) (k0_pay29 (k0_pay14 w x y z) (k0_pay15 w x y z)))) (ix2 (0 : Fin 1) l)
      = rowVal (fun k => (![w, x, y, z] : Fin 4 → Vec Ideal S1x32000 .f32) k (ix2 (0 : Fin 1) l))
          (fun k => Ideal.exp ((![a, b, c] : Fin 3 → Vec Ideal S1x32000 .f32) k (ix2 (0 : Fin 1) l))) 8 := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, addRow_apply, dropRow_apply, mulf_apply, addf_apply, subf_apply, divf_apply,
    broadcast_apply, vsqrt_apply, vexp_apply]
  rfl

/-! ## The block -/

/-- Row k of a 4-row input block, loaded, reads at (0, l) the block at (k, l). -/
theorem ld4 (x1 : Vec Ideal S4x32000 .f32) (l : Fin 32000) (k : Fin 4) :
    (![View.ld x1 r0_0, View.ld x1 r0_1, View.ld x1 r0_2, View.ld x1 r0_3] : Fin 4 → Vec Ideal S1x32000 .f32) k (ix2 (0 : Fin 1) l) = x1 (ix2 k l) := by
  fin_cases k <;>
  · show x1 _ = x1 _
    refine congrArg x1 ?_
    funext a; apply Fin.ext
    match a with
    | ⟨0, _⟩ => rfl
    | ⟨1, _⟩ => show 0 + 1 * l.val = l.val; omega

/-- Row k of a 3-row input block, loaded, reads at (0, l) the block at (k, l). -/
theorem ld3 (x0 : Vec Ideal S3x32000 .f32) (l : Fin 32000) (k : Fin 3) :
    (![View.ld x0 r0_4, View.ld x0 r0_5, View.ld x0 r0_6] : Fin 3 → Vec Ideal S1x32000 .f32) k (ix2 (0 : Fin 1) l) = x0 (ix2 k l) := by
  fin_cases k <;>
  · show x0 _ = x0 _
    refine congrArg x0 ?_
    funext a; apply Fin.ext
    match a with
    | ⟨0, _⟩ => rfl
    | ⟨1, _⟩ => show 0 + 1 * l.val = l.val; omega

/-- An index of a one-row matrix is (0, its lane). -/
theorem eq_row0 (x : S1x32000.Idx) : x = ix2 (0 : Fin 1) (x 1) := funext fun a => by
  match a with
  | ⟨0, _⟩ => exact Fin.ext (by have h : (x 0).val < 1 := (x 0).isLt; show (x 0).val = 0; omega)
  | ⟨1, _⟩ => rfl

/-- The value at (row r, lane l) of the output block, from the input blocks' values at lane l. -/
def laneRow (x0 : Vec Ideal S3x32000 .f32) (x1 : Vec Ideal S4x32000 .f32) (r : Fin 9) (l : Fin 32000) : EReal :=
  rowVal (fun k => x1 (ix2 k l)) (fun k => Ideal.exp (x0 (ix2 k l))) r

/-- The loaded rows' values at lane l are the blocks' values there, and a store's place in the block is its row and lane. -/
theorem rowVal_congr (x0 : Vec Ideal S3x32000 .f32) (x1 : Vec Ideal S4x32000 .f32) (l : Fin 32000) (r r' : Fin 9) (l' : Fin 32000)
    (hr : r' = r) (hl : l' = l) :
    rowVal (fun k => (![View.ld x1 r0_0, View.ld x1 r0_1, View.ld x1 r0_2, View.ld x1 r0_3] : Fin 4 → Vec Ideal S1x32000 .f32) k (ix2 (0 : Fin 1) l))
        (fun k => Ideal.exp ((![View.ld x0 r0_4, View.ld x0 r0_5, View.ld x0 r0_6] : Fin 3 → Vec Ideal S1x32000 .f32) k (ix2 (0 : Fin 1) l))) r
      = laneRow x0 x1 r' l' := by
  subst hr hl
  unfold laneRow
  rw [show (fun k => (![View.ld x1 r0_0, View.ld x1 r0_1, View.ld x1 r0_2, View.ld x1 r0_3] : Fin 4 → Vec Ideal S1x32000 .f32) k (ix2 (0 : Fin 1) l'))
        = fun k => x1 (ix2 k l') from funext (ld4 x1 l'),
    show (fun k => Ideal.exp ((![View.ld x0 r0_4, View.ld x0 r0_5, View.ld x0 r0_6] : Fin 3 → Vec Ideal S1x32000 .f32) k (ix2 (0 : Fin 1) l')))
        = fun k => Ideal.exp (x0 (ix2 k l')) from funext fun k => congrArg Ideal.exp (ld3 x0 l' k)]

/-- What the body leaves in the output block, at (row, lane): the row's covariance entry of the seven input values at
    that lane.  Each of the nine stores covers one row, and the nine rows cover the block. -/
theorem out_apply (x0 : Vec Ideal S3x32000 .f32) (x1 : Vec Ideal S4x32000 .f32) (y : S9x32000.Idx) :
    out0_2 (F := Ideal) x0 x1 y = laneRow x0 x1 (y 0) (y 1) := by
  unfold out0_2
  refine View.canon_apply_of_pieces (Val := Elt Ideal) (e := .f32) (fun y : S9x32000.Idx => (laneRow x0 x1 (y 0) (y 1) : Elt Ideal .f32)) _ ?_ y (cover0_2 _ _ _ _ _ _ _ _ _ y)
  intro p hp x
  simp only [List.mem_cons, List.mem_nil_iff, or_false] at hp
  rcases hp with rfl | rfl | rfl | rfl | rfl | rfl | rfl | rfl | rfl
  · -- the store of row 8
    revert x
    show ∀ x : S1x32000.Idx, _
    intro x
    obtain ⟨l, rfl⟩ : ∃ l : Fin 32000, x = ix2 (0 : Fin 1) l := ⟨x 1, eq_row0 x⟩
    refine (lane_row8 _ _ _ _ _ _ _ l).trans ?_
    exact rowVal_congr x0 x1 l _ _ _ (Fin.ext (by show 8 + 1 * 0 = 8; omega)) (Fin.ext (by show 0 + 1 * l.val = l.val; omega))
  · -- the store of row 7
    revert x
    show ∀ x : S1x32000.Idx, _
    intro x
    obtain ⟨l, rfl⟩ : ∃ l : Fin 32000, x = ix2 (0 : Fin 1) l := ⟨x 1, eq_row0 x⟩
    refine (lane_row7 _ _ _ _ _ _ _ l).trans ?_
    exact rowVal_congr x0 x1 l _ _ _ (Fin.ext (by show 7 + 1 * 0 = 7; omega)) (Fin.ext (by show 0 + 1 * l.val = l.val; omega))
  · -- the store of row 6
    revert x
    show ∀ x : S1x32000.Idx, _
    intro x
    obtain ⟨l, rfl⟩ : ∃ l : Fin 32000, x = ix2 (0 : Fin 1) l := ⟨x 1, eq_row0 x⟩
    refine (lane_row6 _ _ _ _ _ _ _ l).trans ?_
    exact rowVal_congr x0 x1 l _ _ _ (Fin.ext (by show 6 + 1 * 0 = 6; omega)) (Fin.ext (by show 0 + 1 * l.val = l.val; omega))
  · -- the store of row 5
    revert x
    show ∀ x : S1x32000.Idx, _
    intro x
    obtain ⟨l, rfl⟩ : ∃ l : Fin 32000, x = ix2 (0 : Fin 1) l := ⟨x 1, eq_row0 x⟩
    refine (lane_row5 _ _ _ _ _ _ _ l).trans ?_
    exact rowVal_congr x0 x1 l _ _ _ (Fin.ext (by show 5 + 1 * 0 = 5; omega)) (Fin.ext (by show 0 + 1 * l.val = l.val; omega))
  · -- the store of row 4
    revert x
    show ∀ x : S1x32000.Idx, _
    intro x
    obtain ⟨l, rfl⟩ : ∃ l : Fin 32000, x = ix2 (0 : Fin 1) l := ⟨x 1, eq_row0 x⟩
    refine (lane_row4 _ _ _ _ _ _ _ l).trans ?_
    exact rowVal_congr x0 x1 l _ _ _ (Fin.ext (by show 4 + 1 * 0 = 4; omega)) (Fin.ext (by show 0 + 1 * l.val = l.val; omega))
  · -- the store of row 3
    revert x
    show ∀ x : S1x32000.Idx, _
    intro x
    obtain ⟨l, rfl⟩ : ∃ l : Fin 32000, x = ix2 (0 : Fin 1) l := ⟨x 1, eq_row0 x⟩
    refine (lane_row3 _ _ _ _ _ _ _ l).trans ?_
    exact rowVal_congr x0 x1 l _ _ _ (Fin.ext (by show 3 + 1 * 0 = 3; omega)) (Fin.ext (by show 0 + 1 * l.val = l.val; omega))
  · -- the store of row 2
    revert x
    show ∀ x : S1x32000.Idx, _
    intro x
    obtain ⟨l, rfl⟩ : ∃ l : Fin 32000, x = ix2 (0 : Fin 1) l := ⟨x 1, eq_row0 x⟩
    refine (lane_row2 _ _ _ _ _ _ _ l).trans ?_
    exact rowVal_congr x0 x1 l _ _ _ (Fin.ext (by show 2 + 1 * 0 = 2; omega)) (Fin.ext (by show 0 + 1 * l.val = l.val; omega))
  · -- the store of row 1
    revert x
    show ∀ x : S1x32000.Idx, _
    intro x
    obtain ⟨l, rfl⟩ : ∃ l : Fin 32000, x = ix2 (0 : Fin 1) l := ⟨x 1, eq_row0 x⟩
    refine (lane_row1 _ _ _ _ _ _ _ l).trans ?_
    exact rowVal_congr x0 x1 l _ _ _ (Fin.ext (by show 1 + 1 * 0 = 1; omega)) (Fin.ext (by show 0 + 1 * l.val = l.val; omega))
  · -- the store of row 0
    revert x
    show ∀ x : S1x32000.Idx, _
    intro x
    obtain ⟨l, rfl⟩ : ∃ l : Fin 32000, x = ix2 (0 : Fin 1) l := ⟨x 1, eq_row0 x⟩
    refine (lane_row0 _ _ _ _ _ _ _ l).trans ?_
    exact rowVal_congr x0 x1 l _ _ _ (Fin.ext (by show 0 + 1 * 0 = 0; omega)) (Fin.ext (by show 0 + 1 * l.val = l.val; omega))

end Cert.KernelIdeal.Block

end
-- ==== Proof.KernelArray.lean ====
/-
  From blocks to the whole result.

  Grid step t works on columns 32000·t … 32000·t + 31999 of the transposed inputs (3 × N log-scales, 4 × N quaternions)
  and writes the same columns of a 9 × N array: entry (r, n) is stored row r's covariance entry of column n.  The 125
  blocks tile the array, so after the region the array holds that function everywhere.  The transposed inputs are the
  arguments read at swapped coordinates; the program then transposes the 9 × N array to N × 9 and reshapes it to
  N × 3 × 3, so entry (n, i, j) of the result is row 3·i + j at column n.
-/
import proofs.«102997_j23862838296740_2_alg».proof.Proof.Gen.KernelIdeal.Frame
import proofs.«102997_j23862838296740_2_alg».proof.Proof.KernelBlock
import Idealize.ShloMosaic.Lib.Pipeline.Value
import Idealize.ShloMosaic.Lib.ValueIdx
import Idealize.ShloMosaic.Lib.StableHlo.Run

set_option maxRecDepth 16384

noncomputable section

namespace Cert.KernelIdeal.Whole

open Cert.KernelIdeal Cert.KernelIdeal.Gen Cert.KernelIdeal.Block Cert.GaussCov
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- Entry (r, n) of the 9 × N array, from the transposed inputs' column n. -/
def entry9 (a0 : (⟨S3x4000000, .f32⟩ : BufTy).Contents (Elt Ideal)) (a1 : (⟨S4x4000000, .f32⟩ : BufTy).Contents (Elt Ideal))
    (r : Fin 9) (n : Fin 4000000) : EReal :=
  rowVal (fun k => a1 (ix2 k n)) (fun k => Ideal.exp (a0 (ix2 k n))) r

/-- The 9 × N array as one function of the transposed inputs. -/
def rows9 (a0 : (⟨S3x4000000, .f32⟩ : BufTy).Contents (Elt Ideal)) (a1 : (⟨S4x4000000, .f32⟩ : BufTy).Contents (Elt Ideal)) :
    (⟨S9x4000000, .f32⟩ : BufTy).Contents (Elt Ideal) := fun y => entry9 a0 a1 (y 0) (y 1)

/-- Every window's block at grid step t sits at row-block 0 and column-block t. -/
theorem idx_facts : ∀ t : Fin cfg0.N, win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- The log-scale block at step t reads the transposed log-scales at column 32000·t + lane. -/
theorem iblk0_apply (c : Dev nD) (t : Fin cfg0.N) (k : Fin 3) (l : Fin 32000) (n : Fin 4000000) (hn : n.val = t.val * 32000 + l.val) :
    (iblk m c 0 t : Vec Ideal S3x32000 .f32) (ix2 k l) = (V m c main_v0 : (⟨S3x4000000, .f32⟩ : BufTy).Contents (Elt Ideal)) (ix2 k n) := by
  obtain ⟨e00, e01, -, -, -, -⟩ := idx_facts t
  unfold iblk
  rw [View.read_apply]
  show V m c main_v0 _ = V m c main_v0 _
  refine congrArg (V m c main_v0) ?_
  funext a
  apply Fin.ext
  match a with
  | ⟨0, _⟩ => show win0_0.index t (0 : Fin 2) * 3 + 1 * k.val = k.val; rw [e00]; omega
  | ⟨1, _⟩ => show win0_0.index t (1 : Fin 2) * 32000 + 1 * l.val = n.val; rw [e01, hn]; omega

/-- The quaternion block at step t reads the transposed quaternions at column 32000·t + lane. -/
theorem iblk1_apply (c : Dev nD) (t : Fin cfg0.N) (k : Fin 4) (l : Fin 32000) (n : Fin 4000000) (hn : n.val = t.val * 32000 + l.val) :
    (iblk m c 1 t : Vec Ideal S4x32000 .f32) (ix2 k l) = (V m c main_v1 : (⟨S4x4000000, .f32⟩ : BufTy).Contents (Elt Ideal)) (ix2 k n) := by
  obtain ⟨-, -, e10, e11, -, -⟩ := idx_facts t
  unfold iblk
  rw [View.read_apply]
  show V m c main_v1 _ = V m c main_v1 _
  refine congrArg (V m c main_v1) ?_
  funext a
  apply Fin.ext
  match a with
  | ⟨0, _⟩ => show win0_1.index t (0 : Fin 2) * 4 + 1 * k.val = k.val; rw [e10]; omega
  | ⟨1, _⟩ => show win0_1.index t (1 : Fin 2) * 32000 + 1 * l.val = n.val; rw [e11, hn]; omega

/-- The block's value at (row, lane) is the array's entry at (row, 32000·t + lane). -/
theorem lane_eq_entry (c : Dev nD) (t : Fin cfg0.N) (r : Fin 9) (l : Fin 32000) (r' : Fin 9) (n : Fin 4000000)
    (hr : r' = r) (hn : n.val = t.val * 32000 + l.val) :
    laneRow (iblk m c 0 t) (iblk m c 1 t) r l = entry9 (V m c main_v0) (V m c main_v1) r' n := by
  subst hr
  unfold laneRow entry9
  rw [show (fun k : Fin 4 => (iblk m c 1 t : Vec Ideal S4x32000 .f32) (ix2 k l)) = fun k => (V m c main_v1 : (⟨S4x4000000, .f32⟩ : BufTy).Contents (Elt Ideal)) (ix2 k n) from
      funext fun k => iblk1_apply m c t k l n hn,
    show (fun k : Fin 3 => Ideal.exp ((iblk m c 0 t : Vec Ideal S3x32000 .f32) (ix2 k l))) = fun k => Ideal.exp ((V m c main_v0 : (⟨S3x4000000, .f32⟩ : BufTy).Contents (Elt Ideal)) (ix2 k n)) from
      funext fun k => congrArg Ideal.exp (iblk0_apply m c t k l n hn)]

/-- What step t writes back is block t of the 9 × N function. -/
theorem flushed_eq (c : Dev nD) (t : Fin cfg0.N) :
    (dats m 0 c).flushed 2 t = ((cfg0.win 2).blk t).view.read (Elt Ideal) (rows9 (V m c main_v0) (V m c main_v1)) := by
  show (cfg0.win 2).cut (grid0.coords t) ((dats m 0 c).after 2 t) = _
  rw [after0_2]
  obtain ⟨-, -, -, -, e20, e21⟩ := idx_facts t
  funext j
  obtain ⟨r, l, rfl⟩ : ∃ (r : Fin 9) (l : Fin 32000), j = ix2 r l := ⟨j 0, j 1, eq_ix2 j⟩
  show out0_2 (iblk m c 0 t) (iblk m c 1 t) (ix2 r l) = rows9 (V m c main_v0) (V m c main_v1) (((cfg0.win 2).blk t).view.emb (ix2 r l))
  refine (out_apply (iblk m c 0 t) (iblk m c 1 t) (ix2 r l)).trans ?_
  unfold rows9
  refine lane_eq_entry m c t r l _ _ (Fin.ext ?_) ?_
  · show win0_2.index t (0 : Fin 2) * 9 + 1 * r.val = r.val; rw [e20]; omega
  · show win0_2.index t (1 : Fin 2) * 32000 + 1 * l.val = t.val * 32000 + l.val; rw [e21]; omega

/-- An index lies in step t's block exactly when each coordinate lies in the block's range. -/
theorem mem_blk (t : Fin cfg0.N) (i : S9x4000000.Idx) :
    i ∈ ((cfg0.win 2).blk t).view.set ↔ ∀ a : Fin 2, win0_2.index t a * S9x32000.size a ≤ (i a).val ∧ (i a).val < win0_2.index t a * S9x32000.size a + S9x32000.size a := by
  show i ∈ ((View.whole main_v2).slice (win0_2.rect t)).set ↔ _
  rw [View.set_slice_whole, Rect.mem_set_unit]
  exact Iff.rfl

/-- Every index is in the block of the step its column falls in. -/
theorem cover (i : S9x4000000.Idx) : ∃ t : Fin cfg0.N, (cfg0.win 2).flush t = true ∧ i ∈ ((cfg0.win 2).blk t).view.set := by
  have h0 : (i 0).val < 9 := (i 0).isLt
  have h1 : (i 1).val < 4000000 := (i 1).isLt
  have hN : cfg0.N = 125 := N_0
  have ht : (i 1).val / 32000 < cfg0.N := by rw [hN]; omega
  obtain ⟨-, -, -, -, e20, e21⟩ := idx_facts ⟨(i 1).val / 32000, ht⟩
  refine ⟨⟨(i 1).val / 32000, ht⟩, flush0_2 _, ?_⟩
  rw [mem_blk]
  intro a
  match a with
  | ⟨0, _⟩ =>
    show win0_2.index ⟨(i 1).val / 32000, ht⟩ (0 : Fin 2) * 9 ≤ (i 0).val ∧ (i 0).val < win0_2.index ⟨(i 1).val / 32000, ht⟩ (0 : Fin 2) * 9 + 9
    rw [e20]; omega
  | ⟨1, _⟩ =>
    show win0_2.index ⟨(i 1).val / 32000, ht⟩ (1 : Fin 2) * 32000 ≤ (i 1).val ∧ (i 1).val < win0_2.index ⟨(i 1).val / 32000, ht⟩ (1 : Fin 2) * 32000 + 32000
    rw [e21]
    show (i 1).val / 32000 * 32000 ≤ (i 1).val ∧ (i 1).val < (i 1).val / 32000 * 32000 + 32000
    omega

/-- So the 9 × N array ends holding the function of the transposed inputs. -/
theorem final9 (c : Dev nD) : (dats m 0 c).arrAt 2 cfg0.N = rows9 (V m c main_v0) (V m c main_v1) :=
  (dats m 0 c).arrAt_eq_of_cover 2 (rows9 (V m c main_v0) (V m c main_v1)) (fun t _ => flushed_eq m c t) cover

end Cert.KernelIdeal.Whole

end
-- ==== Proof.CovSpec.lean ====
/-
  The result both programs are shown to compute, as one function of the two argument arrays.
-/
import proofs.«102997_j23862838296740_2_alg».proof.Proof.CovAlgebra
import Idealize.ShloMosaic.Lib.ValueIdx

noncomputable section

namespace Cert.GaussCov

open Idealize.ShloMosaic Idealize.ShloMosaic.ValueIdx

/-- Entry (n, i, j) is the covariance entry (i, j) of row n's quaternion and exponentiated log-scales. -/
def covAt (sc : (⟨2, ![4000000, 3]⟩ : Shape).Idx → EReal) (ro : (⟨2, ![4000000, 4]⟩ : Shape).Idx → EReal) :
    (⟨3, ![4000000, 3, 3]⟩ : Shape).Idx → EReal := fun j =>
  covM (rotM (unitQ fun k => ro (ix2 (j 0) k))) (fun k => Ideal.exp (sc (ix2 (j 0) k))) (j 1) (j 2)

end Cert.GaussCov

end
-- ==== Proof.KernelTail.lean ====
/-
  The kernel program's result as a function of its arguments.

  Before the region the program transposes both arguments; after it, it transposes the 9 × N array and reshapes it
  to N × 3 × 3.  Entry (n, i, j) of the result is therefore entry (3·i + j, n) of the 9 × N array, whose inputs at
  column n are row n of the arguments; by the algebra of one row that is the covariance entry (i, j) of row n.
-/
import proofs.«102997_j23862838296740_2_alg».proof.Proof.Gen.KernelIdeal.Frame
import proofs.«102997_j23862838296740_2_alg».proof.Proof.KernelArray
import proofs.«102997_j23862838296740_2_alg».proof.Proof.CovSpec
import Idealize.ShloMosaic.Lib.Pipeline.Value
import Idealize.ShloMosaic.Lib.ValueIdx
import Idealize.ShloMosaic.Lib.StableHlo.Run

set_option maxRecDepth 16384

noncomputable section

namespace Cert.KernelIdeal.Whole

open Cert.KernelIdeal Cert.KernelIdeal.Gen Cert.KernelIdeal.Block Cert.GaussCov
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The region finds the log-scales transposed. -/
theorem V_v0 (c : Dev nD) : (V m c main_v0 : (⟨S3x4000000, .f32⟩ : BufTy).Contents (Elt Ideal))
    = transpose S3x4000000 [1, 0] (m ((c : Thread nD τ).loc main_arg0)) transposes_S4000000x3_S3x4000000_1_0 := by
  show StableHlo.after hostOps0 (fun b => m (c, b)) (Proc.devRef .tc main_v0) = _
  after_results

/-- The region finds the quaternions transposed. -/
theorem V_v1 (c : Dev nD) : (V m c main_v1 : (⟨S4x4000000, .f32⟩ : BufTy).Contents (Elt Ideal))
    = transpose S4x4000000 [1, 0] (m ((c : Thread nD τ).loc main_arg1)) transposes_S4000000x4_S4x4000000_1_0 := by
  show StableHlo.after hostOps0 (fun b => m (c, b)) (Proc.devRef .tc main_v1) = _
  after_results

/-- The transposed log-scales at (k, n) are the argument at (n, k). -/
theorem V_v0_apply (c : Dev nD) (k : Fin 3) (n : Fin 4000000) :
    (V m c main_v0 : (⟨S3x4000000, .f32⟩ : BufTy).Contents (Elt Ideal)) (ix2 k n) = (m ((c : Thread nD τ).loc main_arg0) : (⟨S4000000x3, .f32⟩ : BufTy).Contents (Elt Ideal)) (ix2 n k) := by
  rw [V_v0]
  exact transpose_apply _ _ _ (ix2 k n) (ix2 n k) (fun b => by match b with | ⟨0, _⟩ => rfl | ⟨1, _⟩ => rfl)

/-- The transposed quaternions at (k, n) are the argument at (n, k). -/
theorem V_v1_apply (c : Dev nD) (k : Fin 4) (n : Fin 4000000) :
    (V m c main_v1 : (⟨S4x4000000, .f32⟩ : BufTy).Contents (Elt Ideal)) (ix2 k n) = (m ((c : Thread nD τ).loc main_arg1) : (⟨S4000000x4, .f32⟩ : BufTy).Contents (Elt Ideal)) (ix2 n k) := by
  rw [V_v1]
  exact transpose_apply _ _ _ (ix2 k n) (ix2 n k) (fun b => by match b with | ⟨0, _⟩ => rfl | ⟨1, _⟩ => rfl)

/-- Entry (r, n) of the 9 × N array, for r = 3·i + j, is the covariance entry (i, j) of row n of the arguments. -/
theorem entry9_eq (c : Dev nD) (n : Fin 4000000) (i j : Fin 3) (r : Fin 9) (hr : r.val = 3 * i.val + j.val) :
    entry9 (V m c main_v0) (V m c main_v1) r n
      = covAt (m ((c : Thread nD τ).loc main_arg0)) (m ((c : Thread nD τ).loc main_arg1)) (ix3 n i j) := by
  unfold entry9
  rw [show (fun k : Fin 4 => (V m c main_v1 : (⟨S4x4000000, .f32⟩ : BufTy).Contents (Elt Ideal)) (ix2 k n))
        = fun k => (m ((c : Thread nD τ).loc main_arg1) : (⟨S4000000x4, .f32⟩ : BufTy).Contents (Elt Ideal)) (ix2 n k) from funext fun k => V_v1_apply m c k n,
    show (fun k : Fin 3 => Ideal.exp ((V m c main_v0 : (⟨S3x4000000, .f32⟩ : BufTy).Contents (Elt Ideal)) (ix2 k n)))
        = fun k => Ideal.exp ((m ((c : Thread nD τ).loc main_arg0) : (⟨S4000000x3, .f32⟩ : BufTy).Contents (Elt Ideal)) (ix2 n k)) from
      funext fun k => congrArg Ideal.exp (V_v0_apply m c k n)]
  exact rowVal_eq _ _ i j r hr

/-- The program's result: the 9 × N array the region leaves, transposed and reshaped, is the covariance array. -/
theorem result_eq (c : Dev nD) :
    Pipeline.afterTail₀ cfgs (dats m) 0 (V0 m) [hostOps1] c main_v4
      = covAt (m ((c : Thread nD τ).loc main_arg0)) (m ((c : Thread nD τ).loc main_arg1)) := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v2)
      = rows9 (V m c main_v0) (V m c main_v1) :=
    (Pipeline.withArrays_arr spec0 launch0.win.arr_inj c _ _ 2).trans (final9 m c)
  rw [hw]
  funext i
  obtain ⟨n, a, b, rfl⟩ : ∃ (n : Fin 4000000) (a b : Fin 3), i = ix3 n a b := ⟨i 0, i 1, i 2, eq_ix3 i⟩
  have hab : 3 * a.val + b.val < 9 := by have := a.isLt; have := b.isLt; omega
  show shapeCast S4000000x3x3 (transpose S4000000x9 [1, 0] (rows9 (V m c main_v0) (V m c main_v1)) transposes_S9x4000000_S4000000x9_1_0)
      shapeCasts_S4000000x9_S4000000x3x3 (ix3 n a b) = _
  refine (shapeCast_apply _ _ (ix3 n a b) (ix2 n (⟨3 * a.val + b.val, hab⟩ : Fin 9)) ?_).trans ?_
  · rw [Shape.rowMajor_val_two, Shape.rowMajor_val_three]
    show n.val * 9 + (3 * a.val + b.val) = (n.val * 3 + a.val) * 3 + b.val
    omega
  refine (transpose_apply _ _ _ (ix2 n (⟨3 * a.val + b.val, hab⟩ : Fin 9)) (ix2 (⟨3 * a.val + b.val, hab⟩ : Fin 9) n)
    (fun d => by match d with | ⟨0, _⟩ => rfl | ⟨1, _⟩ => rfl)).trans ?_
  exact entry9_eq m c n a b ⟨3 * a.val + b.val, hab⟩ rfl

/-- The kernel program's run, read: it terminates with the result at the covariance array and the arguments unchanged. -/
theorem run : θ_run (defs (F := Ideal)) (onTc (τ := τ) (main (F := Ideal))) ⟨m, fun _ => 0, ρ⟩ fun r => ∀ c : Dev nD,
      r.2.mem ((c.tc : Thread nD τ).loc main_v4) = covAt (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v4 (Pipeline.mem_restRefs_of main_v4 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Whole

end
-- ==== Proof.RefRead.lean ====
/-
  The reference's result read at an index: entry (n, i, j) is the covariance entry (i, j) of row n's quaternion and
  log-scales.

  The reference normalises all quaternions at once (a row sum of squares from zero, a square root, the small constant,
  a division broadcast along the row), slices the four components out as vectors, forms the nine rotation entries as
  vectors, stacks them into an [N, 3, 3] array by two rounds of concatenation, multiplies by the exponentiated scales
  broadcast along the middle axis, and contracts the last axis of the product with itself.  Read at one index, each
  step touches only row n, so the whole is the one-row formula.
-/
import proofs.«102997_j23862838296740_2_alg».proof.Proof.Gen.ReferenceIdeal.Read
import proofs.«102997_j23862838296740_2_alg».proof.Proof.CovAlgebra
import proofs.«102997_j23862838296740_2_alg».proof.Proof.CovSpec
import Idealize.ShloMosaic.Lib.Pipeline.Value
import Idealize.ShloMosaic.Lib.ValueIdx

noncomputable section

namespace Cert.ReferenceIdeal.RefValue

open Cert.ReferenceIdeal Cert.ReferenceIdeal.Read Cert.GaussCov
open Idealize.ShloMosaic Idealize.ShloMosaic.TcCoe Idealize.ShloMosaic.ValueIdx
open scoped BigOperators

variable (x0 : (⟨S4000000x3, .f32⟩ : BufTy).Contents (Elt Ideal)) (x1 : (⟨S4000000x4, .f32⟩ : BufTy).Contents (Elt Ideal))

/-- Row n's quaternion. -/
abbrev quat (n : Fin 4000000) : Fin 4 → EReal := fun k => x1 (ix2 n k)
/-- Row n's exponentiated scales. -/
abbrev scale (n : Fin 4000000) : Fin 3 → EReal := fun k => Ideal.exp (x0 (ix2 n k))

/-- The normalised quaternion array at (n, k): component k of row n divided by that row's norm plus the constant. -/
theorem unit_apply (n : Fin 4000000) (k : Fin 4) : val_main_v4 (F := Ideal) x1 (ix2 n k) = unitQ (quat x1 n) k := by
  rw [val_main_v4_apply, val_main_v3_apply, val_main_v2_apply, val_main_v0_apply, val_main_call0_v2_apply, val_main_call0_v1_apply,
    val_main_call0_cst_apply, val_main_v1_apply, val_main_cst_apply]
  have e : ∀ k' : Fin 4, idx_main_call0_v1 (idx_main_call0_v2 (idx_main_v3 (ix2 n k))) k' = ix2 n k' := fun k' =>
    funext fun a => Fin.ext (by match a with | ⟨0, _⟩ => rfl | ⟨1, _⟩ => rfl)
  simp only [val_main_call0_v0_apply, e, Ideal.hostDivf_def, Ideal.hostUnary_sqrt_def, Ideal.addf_def, Ideal.mulf_def, Ideal.ofBits_def,
    Ideal.ofBits_zero_f32]
  unfold unitQ normEps
  rfl

/-! ## The four component vectors at n -/

theorem comp0_apply (n : Fin 4000000) : val_main_v6 (F := Ideal) x1 (ix1 n) = unitQ (quat x1 n) 0 := by
  rw [val_main_v6_apply, val_main_v5_apply]
  refine Eq.trans (congrArg (val_main_v4 (F := Ideal) x1) ?_) (unit_apply x1 n 0)
  funext a; apply Fin.ext
  match a with
  | ⟨0, _⟩ => exact Nat.div_one _
  | ⟨1, _⟩ => rfl
theorem comp1_apply (n : Fin 4000000) : val_main_v8 (F := Ideal) x1 (ix1 n) = unitQ (quat x1 n) 1 := by
  rw [val_main_v8_apply, val_main_v7_apply]
  refine Eq.trans (congrArg (val_main_v4 (F := Ideal) x1) ?_) (unit_apply x1 n 1)
  funext a; apply Fin.ext
  match a with
  | ⟨0, _⟩ => exact Nat.div_one _
  | ⟨1, _⟩ => rfl
theorem comp2_apply (n : Fin 4000000) : val_main_v10 (F := Ideal) x1 (ix1 n) = unitQ (quat x1 n) 2 := by
  rw [val_main_v10_apply, val_main_v9_apply]
  refine Eq.trans (congrArg (val_main_v4 (F := Ideal) x1) ?_) (unit_apply x1 n 2)
  funext a; apply Fin.ext
  match a with
  | ⟨0, _⟩ => exact Nat.div_one _
  | ⟨1, _⟩ => rfl
theorem comp3_apply (n : Fin 4000000) : val_main_v12 (F := Ideal) x1 (ix1 n) = unitQ (quat x1 n) 3 := by
  rw [val_main_v12_apply, val_main_v11_apply]
  refine Eq.trans (congrArg (val_main_v4 (F := Ideal) x1) ?_) (unit_apply x1 n 3)
  funext a; apply Fin.ext
  match a with
  | ⟨0, _⟩ => exact Nat.div_one _
  | ⟨1, _⟩ => rfl

/-! ## The nine rotation entries, as vectors read at n -/

theorem rot00_apply (n : Fin 4000000) : val_main_v19 (F := Ideal) x1 (ix1 n) = rotM (unitQ (quat x1 n)) 0 0 := by
  rw [val_main_v19_apply, val_main_v18_apply, val_main_cst_1_apply, val_main_v17_apply, val_main_v16_apply, val_main_cst_0_apply, val_main_v15_apply, val_main_v14_apply, val_main_v13_apply, comp2_apply, comp3_apply]
  rfl
theorem rot01_apply (n : Fin 4000000) : val_main_v24 (F := Ideal) x1 (ix1 n) = rotM (unitQ (quat x1 n)) 0 1 := by
  rw [val_main_v24_apply, val_main_v23_apply, val_main_cst_2_apply, val_main_v22_apply, val_main_v21_apply, val_main_v20_apply, comp0_apply, comp1_apply, comp2_apply, comp3_apply]
  rfl
theorem rot02_apply (n : Fin 4000000) : val_main_v29 (F := Ideal) x1 (ix1 n) = rotM (unitQ (quat x1 n)) 0 2 := by
  rw [val_main_v29_apply, val_main_v28_apply, val_main_cst_3_apply, val_main_v27_apply, val_main_v26_apply, val_main_v25_apply, comp0_apply, comp1_apply, comp2_apply, comp3_apply]
  rfl
theorem rot10_apply (n : Fin 4000000) : val_main_v38 (F := Ideal) x1 (ix1 n) = rotM (unitQ (quat x1 n)) 1 0 := by
  rw [val_main_v38_apply, val_main_v37_apply, val_main_cst_4_apply, val_main_v36_apply, val_main_v35_apply, val_main_v34_apply, comp0_apply, comp1_apply, comp2_apply, comp3_apply]
  rfl
theorem rot11_apply (n : Fin 4000000) : val_main_v45 (F := Ideal) x1 (ix1 n) = rotM (unitQ (quat x1 n)) 1 1 := by
  rw [val_main_v45_apply, val_main_v44_apply, val_main_cst_6_apply, val_main_v43_apply, val_main_v42_apply, val_main_cst_5_apply, val_main_v41_apply, val_main_v40_apply, val_main_v39_apply, comp1_apply, comp3_apply]
  rfl
theorem rot12_apply (n : Fin 4000000) : val_main_v50 (F := Ideal) x1 (ix1 n) = rotM (unitQ (quat x1 n)) 1 2 := by
  rw [val_main_v50_apply, val_main_v49_apply, val_main_cst_7_apply, val_main_v48_apply, val_main_v47_apply, val_main_v46_apply, comp0_apply, comp1_apply, comp2_apply, comp3_apply]
  rfl
theorem rot20_apply (n : Fin 4000000) : val_main_v59 (F := Ideal) x1 (ix1 n) = rotM (unitQ (quat x1 n)) 2 0 := by
  rw [val_main_v59_apply, val_main_v58_apply, val_main_cst_8_apply, val_main_v57_apply, val_main_v56_apply, val_main_v55_apply, comp0_apply, comp1_apply, comp2_apply, comp3_apply]
  rfl
theorem rot21_apply (n : Fin 4000000) : val_main_v64 (F := Ideal) x1 (ix1 n) = rotM (unitQ (quat x1 n)) 2 1 := by
  rw [val_main_v64_apply, val_main_v63_apply, val_main_cst_9_apply, val_main_v62_apply, val_main_v61_apply, val_main_v60_apply, comp0_apply, comp1_apply, comp2_apply, comp3_apply]
  rfl
theorem rot22_apply (n : Fin 4000000) : val_main_v71 (F := Ideal) x1 (ix1 n) = rotM (unitQ (quat x1 n)) 2 2 := by
  rw [val_main_v71_apply, val_main_v70_apply, val_main_cst_11_apply, val_main_v69_apply, val_main_v68_apply, val_main_cst_10_apply, val_main_v67_apply, val_main_v66_apply, val_main_v65_apply, comp1_apply, comp2_apply]
  rfl

/-! ## Stacking: three unit-width pieces joined along an axis -/

/-- Three pieces of one shape with extent 1 along the joined axis: at coordinate k on that axis the concatenation reads
    piece k at the index with the same other coordinates; so if the three pieces read g 0, g 1, g 2 there, it reads g k. -/
theorem concat3_read {α : Type} {t s₁ : Shape} (a : Fin t.rank) (f0 f1 f2 : s₁.Idx → α)
    (h : Shape.Concatenates (([⟨s₁, f0⟩, ⟨s₁, f1⟩, ⟨s₁, f2⟩] : List ((s : Shape) × (s.Idx → α))).map (·.1)) t a)
    (hr : s₁.rank = t.rank) (h1 : s₁.size (a.cast hr.symm) = 1) (j : t.Idx) (k : Fin 3) (hk : (j a).val = k.val)
    (i : s₁.Idx) (hi : ∀ b : Fin s₁.rank, b.cast hr ≠ a → (i b).val = (j (b.cast hr)).val)
    (g : Fin 3 → α) (e0 : f0 i = g 0) (e1 : f1 i = g 1) (e2 : f2 i = g 2) :
    concatenate t a [⟨s₁, f0⟩, ⟨s₁, f1⟩, ⟨s₁, f2⟩] h j = g k := by
  refine (concatenate_ofFn_unit_apply a (![f0, f1, f2] : Fin 3 → s₁.Idx → α) h hr h1 j k hk i hi).trans ?_
  fin_cases k
  · exact e0
  · exact e1
  · exact e2

/-! ## The rows of the rotation matrix, then the matrix -/

theorem col00_apply (n : Fin 4000000) : val_main_v30 (F := Ideal) x1 (ix2 n (0 : Fin 1)) = rotM (unitQ (quat x1 n)) 0 0 := by
  rw [val_main_v30_apply]
  exact (congrArg (val_main_v19 (F := Ideal) x1) (funext fun a => Fin.ext (by match a with | ⟨0, _⟩ => rfl))).trans (rot00_apply x1 n)
theorem col01_apply (n : Fin 4000000) : val_main_v31 (F := Ideal) x1 (ix2 n (0 : Fin 1)) = rotM (unitQ (quat x1 n)) 0 1 := by
  rw [val_main_v31_apply]
  exact (congrArg (val_main_v24 (F := Ideal) x1) (funext fun a => Fin.ext (by match a with | ⟨0, _⟩ => rfl))).trans (rot01_apply x1 n)
theorem col02_apply (n : Fin 4000000) : val_main_v32 (F := Ideal) x1 (ix2 n (0 : Fin 1)) = rotM (unitQ (quat x1 n)) 0 2 := by
  rw [val_main_v32_apply]
  exact (congrArg (val_main_v29 (F := Ideal) x1) (funext fun a => Fin.ext (by match a with | ⟨0, _⟩ => rfl))).trans (rot02_apply x1 n)
theorem row0_apply (n : Fin 4000000) (k : Fin 3) : val_main_v33 (F := Ideal) x1 (ix2 n k) = rotM (unitQ (quat x1 n)) 0 k := by
  unfold val_main_v33
  exact concat3_read (t := S4000000x3) (s₁ := S4000000x1) (1 : Fin S4000000x3.rank) _ _ _ _ rfl rfl (ix2 n k) k rfl (ix2 n (0 : Fin 1))
    (fun b hb => by match b with | ⟨0, _⟩ => rfl | ⟨1, _⟩ => exact absurd rfl hb)
    (fun k => rotM (unitQ (quat x1 n)) 0 k) (col00_apply x1 n) (col01_apply x1 n) (col02_apply x1 n)
theorem col10_apply (n : Fin 4000000) : val_main_v51 (F := Ideal) x1 (ix2 n (0 : Fin 1)) = rotM (unitQ (quat x1 n)) 1 0 := by
  rw [val_main_v51_apply]
  exact (congrArg (val_main_v38 (F := Ideal) x1) (funext fun a => Fin.ext (by match a with | ⟨0, _⟩ => rfl))).trans (rot10_apply x1 n)
theorem col11_apply (n : Fin 4000000) : val_main_v52 (F := Ideal) x1 (ix2 n (0 : Fin 1)) = rotM (unitQ (quat x1 n)) 1 1 := by
  rw [val_main_v52_apply]
  exact (congrArg (val_main_v45 (F := Ideal) x1) (funext fun a => Fin.ext (by match a with | ⟨0, _⟩ => rfl))).trans (rot11_apply x1 n)
theorem col12_apply (n : Fin 4000000) : val_main_v53 (F := Ideal) x1 (ix2 n (0 : Fin 1)) = rotM (unitQ (quat x1 n)) 1 2 := by
  rw [val_main_v53_apply]
  exact (congrArg (val_main_v50 (F := Ideal) x1) (funext fun a => Fin.ext (by match a with | ⟨0, _⟩ => rfl))).trans (rot12_apply x1 n)
theorem row1_apply (n : Fin 4000000) (k : Fin 3) : val_main_v54 (F := Ideal) x1 (ix2 n k) = rotM (unitQ (quat x1 n)) 1 k := by
  unfold val_main_v54
  exact concat3_read (t := S4000000x3) (s₁ := S4000000x1) (1 : Fin S4000000x3.rank) _ _ _ _ rfl rfl (ix2 n k) k rfl (ix2 n (0 : Fin 1))
    (fun b hb => by match b with | ⟨0, _⟩ => rfl | ⟨1, _⟩ => exact absurd rfl hb)
    (fun k => rotM (unitQ (quat x1 n)) 1 k) (col10_apply x1 n) (col11_apply x1 n) (col12_apply x1 n)
theorem col20_apply (n : Fin 4000000) : val_main_v72 (F := Ideal) x1 (ix2 n (0 : Fin 1)) = rotM (unitQ (quat x1 n)) 2 0 := by
  rw [val_main_v72_apply]
  exact (congrArg (val_main_v59 (F := Ideal) x1) (funext fun a => Fin.ext (by match a with | ⟨0, _⟩ => rfl))).trans (rot20_apply x1 n)
theorem col21_apply (n : Fin 4000000) : val_main_v73 (F := Ideal) x1 (ix2 n (0 : Fin 1)) = rotM (unitQ (quat x1 n)) 2 1 := by
  rw [val_main_v73_apply]
  exact (congrArg (val_main_v64 (F := Ideal) x1) (funext fun a => Fin.ext (by match a with | ⟨0, _⟩ => rfl))).trans (rot21_apply x1 n)
theorem col22_apply (n : Fin 4000000) : val_main_v74 (F := Ideal) x1 (ix2 n (0 : Fin 1)) = rotM (unitQ (quat x1 n)) 2 2 := by
  rw [val_main_v74_apply]
  exact (congrArg (val_main_v71 (F := Ideal) x1) (funext fun a => Fin.ext (by match a with | ⟨0, _⟩ => rfl))).trans (rot22_apply x1 n)
theorem row2_apply (n : Fin 4000000) (k : Fin 3) : val_main_v75 (F := Ideal) x1 (ix2 n k) = rotM (unitQ (quat x1 n)) 2 k := by
  unfold val_main_v75
  exact concat3_read (t := S4000000x3) (s₁ := S4000000x1) (1 : Fin S4000000x3.rank) _ _ _ _ rfl rfl (ix2 n k) k rfl (ix2 n (0 : Fin 1))
    (fun b hb => by match b with | ⟨0, _⟩ => rfl | ⟨1, _⟩ => exact absurd rfl hb)
    (fun k => rotM (unitQ (quat x1 n)) 2 k) (col20_apply x1 n) (col21_apply x1 n) (col22_apply x1 n)

theorem slab0_apply (n : Fin 4000000) (k : Fin 3) : val_main_v76 (F := Ideal) x1 (ix3 n (0 : Fin 1) k) = rotM (unitQ (quat x1 n)) 0 k := by
  rw [val_main_v76_apply]
  exact (congrArg (val_main_v33 (F := Ideal) x1) (funext fun a => Fin.ext (by match a with | ⟨0, _⟩ => rfl | ⟨1, _⟩ => rfl))).trans (row0_apply x1 n k)
theorem slab1_apply (n : Fin 4000000) (k : Fin 3) : val_main_v77 (F := Ideal) x1 (ix3 n (0 : Fin 1) k) = rotM (unitQ (quat x1 n)) 1 k := by
  rw [val_main_v77_apply]
  exact (congrArg (val_main_v54 (F := Ideal) x1) (funext fun a => Fin.ext (by match a with | ⟨0, _⟩ => rfl | ⟨1, _⟩ => rfl))).trans (row1_apply x1 n k)
theorem slab2_apply (n : Fin 4000000) (k : Fin 3) : val_main_v78 (F := Ideal) x1 (ix3 n (0 : Fin 1) k) = rotM (unitQ (quat x1 n)) 2 k := by
  rw [val_main_v78_apply]
  exact (congrArg (val_main_v75 (F := Ideal) x1) (funext fun a => Fin.ext (by match a with | ⟨0, _⟩ => rfl | ⟨1, _⟩ => rfl))).trans (row2_apply x1 n k)
theorem mat_apply (n : Fin 4000000) (i k : Fin 3) : val_main_v79 (F := Ideal) x1 (ix3 n i k) = rotM (unitQ (quat x1 n)) i k := by
  unfold val_main_v79
  exact concat3_read (t := S4000000x3x3) (s₁ := S4000000x1x3) (1 : Fin S4000000x3x3.rank) _ _ _ _ rfl rfl (ix3 n i k) i rfl (ix3 n (0 : Fin 1) k)
    (fun b hb => by match b with | ⟨0, _⟩ => rfl | ⟨1, _⟩ => exact absurd rfl hb | ⟨2, _⟩ => rfl)
    (fun i => rotM (unitQ (quat x1 n)) i k) (slab0_apply x1 n k) (slab1_apply x1 n k) (slab2_apply x1 n k)

/-- The scaled matrix at (n, i, k): the rotation entry times the exponentiated scale k of row n. -/
theorem scaled_apply (n : Fin 4000000) (i k : Fin 3) :
    val_main_v83 (F := Ideal) x0 x1 (ix3 n i k) = rotM (unitQ (quat x1 n)) i k * scale x0 n k := by
  rw [val_main_v83_apply, val_main_v82_apply, val_main_v81_apply, val_main_v80_apply, mat_apply,
    show idx_main_v81 (idx_main_v82 (ix3 n i k)) = ix2 n k from
      funext fun a => Fin.ext (by match a with | ⟨0, _⟩ => rfl | ⟨1, _⟩ => rfl)]
  rfl

/-- The reference's result is the covariance array: the contraction over the last axis of the scaled matrix with itself,
    index by index. -/
theorem result_eq : val_main_v84 (F := Ideal) x0 x1 = covAt x0 x1 := by
  funext j
  obtain ⟨n, a, b, rfl⟩ : ∃ (n : Fin 4000000) (a b : Fin 3), j = ix3 n a b := ⟨j 0, j 1, j 2, eq_ix3 j⟩
  rw [val_main_v84_apply]
  unfold covAt covM
  refine Finset.sum_congr rfl fun k _ => ?_
  rw [show lidx_main_v84 (ix3 n a b) k = ix3 n a k from
      funext fun d => Fin.ext (by match d with | ⟨0, _⟩ => rfl | ⟨1, _⟩ => rfl | ⟨2, _⟩ => rfl),
    show ridx_main_v84 (ix3 n a b) k = ix3 n b k from
      funext fun d => Fin.ext (by match d with | ⟨0, _⟩ => rfl | ⟨1, _⟩ => rfl | ⟨2, _⟩ => rfl),
    scaled_apply, scaled_apply]

end Cert.ReferenceIdeal.RefValue

end
-- ==== Proof.lean ====
/-
  Both programs compute, for each of four million rows, the 3 × 3 covariance R·diag(s)²·Rᵀ of a Gaussian whose
  orientation is the row's quaternion (normalised by its norm plus a small constant) and whose scales are the
  exponentials of the row's three log-scales.

  The kernel program works on the transposed inputs in 125 column blocks, multiplies by the reciprocal of the norm,
  squares the scales first, writes out the three-term sums for the upper triangle only, and stores nine rows that are
  transposed and reshaped afterwards.  The reference divides by the norm, stacks the rotation matrix, scales it and
  contracts it with itself.  On the extended reals the two agree entry by entry (Proof/CovAlgebra.lean): sums and
  products are commutative and associative, the contraction is symmetric, and a·(1/d) = a/d because the divisor — a
  non-negative square root plus a positive constant — is never zero.  The kernel side is read off its run block by
  block (Proof/KernelBlock.lean, KernelArray.lean, KernelTail.lean), the reference side operation by operation
  (Proof/RefRead.lean); both end at the one function Proof/CovSpec.lean states.  No rewrite was applied in printing
  the idealized kernel, so the idealization claim is trivial, and nothing here needs the inputs to be finite.
-/
import proofs.«102997_j23862838296740_2_alg».proof.Defs
import proofs.«102997_j23862838296740_2_alg».proof.Proof.Gen.Kernel
import proofs.«102997_j23862838296740_2_alg».proof.Proof.Gen.Kernel.Skeleton
import proofs.«102997_j23862838296740_2_alg».proof.Proof.Gen.Kernel.Launch
import proofs.«102997_j23862838296740_2_alg».proof.Proof.Gen.Kernel.Points
import proofs.«102997_j23862838296740_2_alg».proof.Proof.Gen.Kernel.Frame
import proofs.«102997_j23862838296740_2_alg».proof.Proof.Gen.KernelIdeal
import proofs.«102997_j23862838296740_2_alg».proof.Proof.Gen.KernelIdeal.Skeleton
import proofs.«102997_j23862838296740_2_alg».proof.Proof.Gen.KernelIdeal.Launch
import proofs.«102997_j23862838296740_2_alg».proof.Proof.Gen.KernelIdeal.Points
import proofs.«102997_j23862838296740_2_alg».proof.Proof.Gen.KernelIdeal.Frame
import proofs.«102997_j23862838296740_2_alg».proof.Proof.Gen.ReferenceIdeal
import proofs.«102997_j23862838296740_2_alg».proof.Proof.Gen.Pre_finite_inputs
import proofs.«102997_j23862838296740_2_alg».proof.Proof.Gen.ReferenceIdeal.Run
import proofs.«102997_j23862838296740_2_alg».proof.Proof.Gen.ReferenceIdeal.Read
import proofs.«102997_j23862838296740_2_alg».proof.Proof.KernelTail
import proofs.«102997_j23862838296740_2_alg».proof.Proof.RefRead
import Idealize.ShloMosaic.Adequacy
import Idealize.ShloMosaic.Init

noncomputable section

namespace Cert.Proof

open Idealize.ShloMosaic Idealize.SL.Sem Cert.GaussCov

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Printing the idealized kernel rewrote nothing. -/
theorem preserves : Cert.preserves_Kernel_KernelIdeal := trivial

/-- From memories that agree on the arguments both programs end with the covariance array of those arguments. -/
theorem algebraic : Cert.algebraic_KernelIdeal_ReferenceIdeal := by
  intro m ρ m' ρ' _ hagree
  refine ⟨fun c => covAt (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v84_eq, (hagree c).1, (hagree c).2]
  exact Cert.ReferenceIdeal.RefValue.result_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
